-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) (main_arg3 : IVec S16x2048x2048 1) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S16x2048x2048 : Shape := ⟨3, ![16, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .i1⟩
  | .hbm, ⟨4, _⟩ => ⟨S16x2048x2048, .i32⟩
  | .hbm, ⟨5, _⟩ => ⟨S16x2048x64, .f32⟩
  | .hbm, ⟨6, _⟩ => ⟨S16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x2048, .i32⟩
  | .local _ .vmem, ⟨7, _⟩ => ⟨S1x512x2048, .i32⟩
  | .local _ .vmem, ⟨8, _⟩ => ⟨S1x512x64, .f32⟩
  | .local _ .vmem, ⟨9, _⟩ => ⟨S1x512x64, .f32⟩
  | .local _ .vmem, ⟨10, _⟩ => ⟨S1x512x2048, .f32⟩
  | .local _ .vmem, ⟨11, _⟩ => ⟨S1x512x2048, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  natLt_1_32 : 1 < 32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x2048x2048.size a
  hwx0_3 : ∀ i : grid0.Coords, EltTy.bits .i32 = 32 ∨ (Rect.block (s := S16x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S16x2048x64.size a
  hwx0_4 : ∀ i : grid0.Coords, EltTy.bits .f32 = 32 ∨ (Rect.block (s := S16x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S16x2048x2048.size a
  hwx0_5 : ∀ i : grid0.Coords, EltTy.bits .f32 = 32 ∨ (Rect.block (s := S16x2048x2048) S1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .i1⟩
  | .hbm, ⟨4, _⟩ => ⟨S_, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S16x2048x2048, .f32⟩
  | .hbm, ⟨9, _⟩ => ⟨S_, .f32⟩
  | .hbm, ⟨10, _⟩ => ⟨S_, .f32⟩
  | .hbm, ⟨11, _⟩ => ⟨S16x2048x2048, .f32⟩
  | .hbm, ⟨12, _⟩ => ⟨S16x2048x2048, .f32⟩
  | .hbm, ⟨13, _⟩ => ⟨S_, .f32⟩
  | .hbm, ⟨14, _⟩ => ⟨S16x2048, .f32⟩
  | .hbm, ⟨15, _⟩ => ⟨S_, .f32⟩
  | .hbm, ⟨16, _⟩ => ⟨S16x2048, .f32⟩
  | .hbm, ⟨17, _⟩ => ⟨S16x2048, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S_, .f32⟩
  | .hbm, ⟨23, _⟩ => ⟨S16x2048, .f32⟩
  | .hbm, ⟨24, _⟩ => ⟨S16x2048x1, .f32⟩
  | .hbm, ⟨25, _⟩ => ⟨S16x2048x2048, .f32⟩
  | .hbm, ⟨26, _⟩ => ⟨S16x2048x2048, .f32⟩
  | .hbm, ⟨27, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.Spec.lean ====
/-
  What both programs compute, stated once. For one query row `qr` (64 entries), the key rows `K` and value rows
  `V` of its batch (2048 rows of 64 entries) and the row's mask bits `mr`:
    score j  = Σ_d (qr d · 1/8) · K j d
    masked j = the fill word −1e30 where the mask bit is set, score j elsewhere
    top      = the maximum of masked over the 2048 keys, folded from −∞
    weight j = exp (masked j − top)
    total    = Σ_j weight j
    attn j   = weight j / total
    out d    = Σ_j attn j · V j d.
  The two result arrays are these, row by row: entry (b, i, j) of the attention array is `attn j` of query row
  (b, i) against batch b's keys, and entry (b, i, d) of the output array is `out d` of the same row. A softmax
  row depends on one query row, one mask row and ALL the keys of its batch, which is why a block of 512 query
  rows with the whole key and value slab of its batch is enough to compute its rows.
-/
import Idealize.ShloMosaic.PureOps.Ideal
import Idealize.ShloMosaic.Lib.ValueIdx

noncomputable section

namespace Cert.Attn

open Idealize.ShloMosaic Idealize.ShloMosaic.ValueIdx

/-- The scaled score of a query row against key row `j`. -/
def score (qr : Fin 64 → EReal) (K : Fin 2048 → Fin 64 → EReal) (j : Fin 2048) : EReal :=
  ∑ d : Fin 64, (qr d * Ideal.ofBits .f32 0x3E000000#32) * K j d

/-- The score with the fill word where the mask bit is set. -/
def masked (mr : Fin 2048 → BitVec 1) (qr : Fin 64 → EReal) (K : Fin 2048 → Fin 64 → EReal) (j : Fin 2048) : EReal :=
  Scalar.select (mr j) (Ideal.ofBits .f32 0xF149F2CA#32) (score qr K j)

/-- The row's maximum, folded from −∞. -/
def top (mr : Fin 2048 → BitVec 1) (qr : Fin 64 → EReal) (K : Fin 2048 → Fin 64 → EReal) : EReal :=
  (Finset.univ : Finset (Fin 2048)).fold max (Ideal.ofBits .f32 0xFF800000#32) (fun j => masked mr qr K j)

/-- The unnormalised weight of key `j`. -/
def weight (mr : Fin 2048 → BitVec 1) (qr : Fin 64 → EReal) (K : Fin 2048 → Fin 64 → EReal) (j : Fin 2048) : EReal :=
  Ideal.exp (masked mr qr K j - top mr qr K)

/-- The row's normaliser. -/
def total (mr : Fin 2048 → BitVec 1) (qr : Fin 64 → EReal) (K : Fin 2048 → Fin 64 → EReal) : EReal :=
  ∑ j : Fin 2048, weight mr qr K j

/-- The attention weight of key `j`. -/
def attn (mr : Fin 2048 → BitVec 1) (qr : Fin 64 → EReal) (K : Fin 2048 → Fin 64 → EReal) (j : Fin 2048) : EReal :=
  Ideal.div (weight mr qr K j) (total mr qr K)

/-- The row's output at feature `d`. -/
def out (mr : Fin 2048 → BitVec 1) (qr : Fin 64 → EReal) (K V : Fin 2048 → Fin 64 → EReal) (d : Fin 64) : EReal :=
  ∑ j : Fin 2048, attn mr qr K j * V j d

/-- A `[16, 2048, 64]` array of extended reals. -/
abbrev Arr64 := (⟨3, ![16, 2048, 64]⟩ : Shape).Idx → EReal
/-- A `[16, 2048, 2048]` array of mask bits. -/
abbrev ArrMask := (⟨3, ![16, 2048, 2048]⟩ : Shape).Idx → BitVec 1

/-- Query row `(b, i)`. -/
def qrow (q : Arr64) (b : Fin 16) (i : Fin 2048) : Fin 64 → EReal := fun d => q (ix3 b i d)
/-- Batch `b`'s rows of a key or value array. -/
def slab (k : Arr64) (b : Fin 16) : Fin 2048 → Fin 64 → EReal := fun j d => k (ix3 b j d)
/-- Mask row `(b, i)`. -/
def mrow (mk : ArrMask) (b : Fin 16) (i : Fin 2048) : Fin 2048 → BitVec 1 := fun j => mk (ix3 b i j)

/-- The attention array as one function of the argument arrays. -/
def attnArr (q k : Arr64) (mk : ArrMask) : (⟨3, ![16, 2048, 2048]⟩ : Shape).Idx → EReal := fun i =>
  attn (mrow mk (i 0) (i 1)) (qrow q (i 0) (i 1)) (slab k (i 0)) (i 2)

/-- The output array as one function of the argument arrays. -/
def outArr (q k v : Arr64) (mk : ArrMask) : (⟨3, ![16, 2048, 64]⟩ : Shape).Idx → EReal := fun i =>
  out (mrow mk (i 0) (i 1)) (qrow q (i 0) (i 1)) (slab k (i 0)) (slab v (i 0)) (i 2)

theorem attnArr_apply (q k : Arr64) (mk : ArrMask) (b : Fin 16) (i j : Fin 2048) :
    attnArr q k mk (ix3 b i j) = attn (mrow mk b i) (qrow q b i) (slab k b) j := rfl

theorem outArr_apply (q k v : Arr64) (mk : ArrMask) (b : Fin 16) (i : Fin 2048) (d : Fin 64) :
    outArr q k v mk (ix3 b i d) = out (mrow mk b i) (qrow q b i) (slab k b) (slab v b) d := rfl

end Cert.Attn

end
-- ==== Proof.LibMatmulNT.lean ====
/-
  A matrix product with the right operand transposed, read at an index on the extended reals.

  For `A : [M, K]` and `B : [N, K]`, a product that contracts the LAST axis of both operands (dimension numbers
  `contracting [1] × [1]`, `non-contracting [0] × [0]`, no batch axes: `A · Bᵀ`, what `lax.dot_general` with
  `(((1,), (1,)), ((), ()))` lowers to) into a zero accumulator is, at `(i, j)`, the finite sum
  `Σ_k A[i, k] · B[j, k]` over `k : Fin K`. Stated for ANY record with those dimension numbers, whatever the extents
  and the operands' float formats, so that it applies to a printed record by its six list fields (each `rfl`).
-/
import Idealize.ShloMosaic.Lib.ValueIdx
import Idealize.ShloMosaic.PureOps.Ideal.Laws

noncomputable section

namespace Cert.LibMatmulNT

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![N, K]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's row is the result's column. -/
theorem rhsIdx_row (d : DotDims ⟨2, ![M, K]⟩ ⟨2, ![N, K]⟩ ⟨2, ![M, N]⟩)
    (hlb : d.lhsBatch = []) (hrb : d.rhsBatch = []) (hln : d.lhsNonContracting = [0]) (hrn : d.rhsNonContracting = [0])
    (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![N, K]⟩ ⟨2, ![M, N]⟩) (hlc : d.lhsContracting = [1]) :
    d.contr.rank = 1 := by
  rw [d.rank_contr, hlc]; rfl

theorem contr_size (d : DotDims ⟨2, ![M, K]⟩ ⟨2, ![N, K]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · Bᵀ` into a zero accumulator, at `(i, j)`, is `Σ_k A[i, k] · B[j, k]`. -/
theorem matmul_nt_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (A : FVec Ideal ⟨2, ![M, K]⟩ φ₁) (B : FVec Ideal ⟨2, ![N, K]⟩ φ₂)
    (i : Fin M) (j : Fin N) :
    matmul d prec A B (constant ⟨2, ![M, N]⟩ .f32 0x00000000#32) (ix2 i j) = ∑ k : Fin K, A (ix2 i k) * B (ix2 j k) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 j k := funext fun a => Fin.ext (by
    match a with
    | ⟨0, _⟩ => exact rhsIdx_row d hlb hrb hln hrn _ _
    | ⟨1, _⟩ => exact (d.rhsIdx_val_of_single hrc _ _).trans hk)
  rw [el, er]

end Cert.LibMatmulNT

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibRowMax.lean ====
/-
  A kernel's row maxima, read at an index given by coordinates.

  `jnp.max(x, axis=1)` of a matrix `[a, b]` is, in a kernel, a lane reduction `[a, b] → [a]` by `maximumf` from an
  accumulator word. On the extended reals `max` is commutative and associative, so the order of the reduction does not
  matter: read at row `r` the result is the fold of `max`, from the value the accumulator's word denotes, over the entries
  `x (r, k)`, `k` running over the row.
-/
import Idealize.ShloMosaic.Lib.ValueIdx
import Idealize.ShloMosaic.PureOps.Ideal.Laws

noncomputable section

namespace Cert.LibRowMax

open Idealize.ShloMosaic Idealize.ShloMosaic.ValueIdx

/-- A lane reduction by `maximumf` of an `[a, b]` matrix along its rows, at the ideal values and read at row `r`: the
    fold of `max` from the accumulator's value over the row. -/
theorem multiReduction_max_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Cert.LibRowMax

end
-- ==== Proof.LibColumns.lean ====
/-
  Small layout and reduction facts read by coordinates, at the exact values: a column broadcast along rows, a vector
  kept as a column, a lane sum along rows, and a maximum along columns.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibColumns

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane sum of an `[a, b]` matrix along its rows, at the exact values and read at row `r`: the sum over the row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- A maximum of an `[a, b]` matrix along its columns, at the exact values and read at column `c`: the fold of max from
    the accumulator's value over the column. -/
theorem multiReduction_max_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine congrArg (Finset.fold _ _ · _) (funext fun k => congrArg src (funext fun ax => Fin.ext ?_))
  match ax with
  | ⟨0, _⟩ => rfl
  | ⟨1, _⟩ => rfl

end Cert.LibColumns

end
-- ==== Proof.Tile.lean ====
/-
  One grid point's arithmetic. The body loads a block of 512 query rows, the whole key slab and the whole value
  slab of the block's batch, and the block's 512 mask rows (as 32-bit words, nonzero where the bit was set), and
  stores 512 rows of attention weights and 512 rows of output. Read row by row, what it stores is the
  specification's `attn` and `out` of (query row p of the block, the slabs, mask row p of the block):
  the contraction against the transposed keys is the scaled score, the lane maximum is the fold of max from −∞,
  the lane sum is the normaliser, and the second contraction is the weighted sum of value rows. The changes of
  float format in between are the identity on the extended reals.
-/
import proofs.«167176_j5720896438775_2_alg».proof.Proof.Gen.KernelIdeal.Skeleton
import proofs.«167176_j5720896438775_2_alg».proof.Proof.Spec
import proofs.«167176_j5720896438775_2_alg».proof.Proof.LibMatmulNT
import proofs.«167176_j5720896438775_2_alg».proof.Proof.LibMatmulNN
import proofs.«167176_j5720896438775_2_alg».proof.Proof.LibRowMax
import proofs.«167176_j5720896438775_2_alg».proof.Proof.LibColumns
import Idealize.ShloMosaic.Lib.ValueLayout

noncomputable section

namespace Cert.Attn.Tile

open Cert.KernelIdeal Cert.KernelIdeal.Gen Idealize.ShloMosaic Idealize.ShloMosaic.ValueIdx

variable (v0 : Vec Ideal S1x512x64 .f32) (v2 v4 : Vec Ideal S1x2048x64 .f32) (v6 : Vec Ideal S1x512x2048 .i32)

/-- Query row `p` of the block. -/
def tq (p : Fin 512) : Fin 64 → EReal := fun d => v0 (ix3 (0 : Fin 1) p d)
/-- The rows of a key or value slab. -/
def ts (x : Vec Ideal S1x2048x64 .f32) : Fin 2048 → Fin 64 → EReal := fun j d => x (ix3 (0 : Fin 1) j d)
/-- Mask row `p` of the block: the bit is set where the loaded word is not zero. -/
def tm (p : Fin 512) : Fin 2048 → BitVec 1 := fun j => IntOp.cmpi .ne (v6 (ix3 (0 : Fin 1) p j)) 0#32

/-! ## The body's values, stage by stage -/

/-- The scores: the scaled queries against the transposed keys, into a zero accumulator. -/
def scores : FVec Ideal S512x2048 .f32 :=
  matmul dot_S512x64_S2048x64_S512x2048_1_1_0_0_n_n none
    (truncf .bf16 (mulf (shapeCast S512x64 v0 shapeCasts_S1x512x64_S512x64) (broadcast S512x64 (Scalar.ofBits .f32 0x3E000000#32))) bitsLt_bf16_f32)
    (truncf .bf16 (shapeCast S2048x64 v2 shapeCasts_S1x2048x64_S2048x64) bitsLt_bf16_f32)
    (constant S512x2048 .f32 0x00000000#32)

/-- The scores with the fill word under the mask. -/
def maskedT : FVec Ideal S512x2048 .f32 :=
  select (cmpi .ne (shapeCast S512x2048 v6 shapeCasts_S1x512x2048_S512x2048) (constantI S512x2048 32 0#32))
    (broadcast S512x2048 (Scalar.ofBits .f32 0xF149F2CA#32)) (scores v0 v2)

/-- The row maxima. -/
def tops : FVec Ideal S512 .f32 :=
  multiReduction .maximumf [1] S512 (maskedT v0 v2 v6) 0xFF800000#32 reduces_S512x2048_S512 (.inl rfl) rfl

/-- The unnormalised weights. -/
def weights : FVec Ideal S512x2048 .f32 :=
  exp (subf (maskedT v0 v2 v6) (broadcastTo S512x2048 (shapeCast S512x1 (tops v0 v2 v6) shapeCasts_S512_S512x1) broadcasts_S512x1_S512x2048))

/-- The row normalisers. -/
def totals : FVec Ideal S512 .f32 :=
  multiReduction .add [1] S512 (weights v0 v2 v6) 0x00000000#32 reduces_S512x2048_S512 (.inl rfl) rfl

/-- The attention weights. -/
def attnT : FVec Ideal S512x2048 .f32 :=
  divf (weights v0 v2 v6) (broadcastTo S512x2048 (shapeCast S512x1 (totals v0 v2 v6) shapeCasts_S512_S512x1) broadcasts_S512x1_S512x2048)

/-- The outputs: the weights against the values, into a zero accumulator. -/
def outT : FVec Ideal S512x64 .f32 :=
  matmul dot_S512x2048_S2048x64_S512x64_1_0_0_1_n_n none
    (truncf .bf16 (attnT v0 v2 v6) bitsLt_bf16_f32)
    (truncf .bf16 (shapeCast S2048x64 v4 shapeCasts_S1x2048x64_S2048x64) bitsLt_bf16_f32)
    (constant S512x64 .f32 0x00000000#32)

/-- The generated payload of the attention store is these stages composed. -/
theorem pay2_eq : k0_pay2 (F := Ideal) v0 v2 v6 = attnT v0 v2 v6 := rfl

/-- The generated payload of the output store is these stages composed. -/
theorem pay4_eq : k0_pay4 (F := Ideal) v0 v2 v4 v6 = outT v0 v2 v4 v6 := rfl

/-! ## Each stage at an index -/

/-- The score of block row `p` against key `j`: the contraction over the 64 features of the scaled query row
    with key row `j`. -/
theorem scores_apply (p : Fin 512) (j : Fin 2048) :
    scores v0 v2 (ix2 p j) = score (tq v0 p) (ts v2) j := by
  unfold scores
  refine (Cert.LibMatmulNT.matmul_nt_apply dot_S512x64_S2048x64_S512x2048_1_1_0_0_n_n rfl rfl rfl rfl rfl rfl none _ _ p j).trans ?_
  refine Finset.sum_congr rfl fun d _ => ?_
  show (shapeCast S512x64 v0 shapeCasts_S1x512x64_S512x64 (ix2 p d) * Ideal.ofBits .f32 0x3E000000#32)
      * shapeCast S2048x64 v2 shapeCasts_S1x2048x64_S2048x64 (ix2 j d) = _
  rw [shapeCast_1ab_ab_apply, shapeCast_1ab_ab_apply]
  rfl

/-- The masked score: the fill word where the loaded mask word is not zero. -/
theorem maskedT_apply (p : Fin 512) (j : Fin 2048) :
    maskedT v0 v2 v6 (ix2 p j) = masked (tm v6 p) (tq v0 p) (ts v2) j := by
  show Scalar.select (IntOp.cmpi .ne (shapeCast S512x2048 v6 shapeCasts_S1x512x2048_S512x2048 (ix2 p j)) 0#32)
      (Ideal.ofBits .f32 0xF149F2CA#32) (scores v0 v2 (ix2 p j)) = _
  rw [scores_apply, shapeCast_1ab_ab_apply]
  rfl

/-- The lane maximum of row `p` is the fold of max from −∞ over its 2048 masked scores. -/
theorem tops_apply (p : Fin 512) : tops v0 v2 v6 (ix1 p) = top (tm v6 p) (tq v0 p) (ts v2) := by
  unfold tops
  refine (Cert.LibRowMax.multiReduction_max_rows_apply (maskedT v0 v2 v6) 0xFF800000#32 reduces_S512x2048_S512 (.inl rfl) rfl p).trans ?_
  unfold top
  exact congrArg (Finset.fold max _ · _) (funext fun j => maskedT_apply v0 v2 v6 p j)

/-- A per-row value kept as a column and spread along the row reads, at `(p, j)`, the row's value. -/
theorem column_apply (x : FVec Ideal S512 .f32) (p : Fin 512) (j : Fin 2048) :
    broadcastTo S512x2048 (shapeCast S512x1 x shapeCasts_S512_S512x1) broadcasts_S512x1_S512x2048 (ix2 p j) = x (ix1 p) := by
  rw [Cert.LibColumns.broadcastTo_a1_ab_apply, Cert.LibColumns.shapeCast_a_a1_apply]

/-- The unnormalised weight: the exponential of the masked score less the row's maximum. -/
theorem weights_apply (p : Fin 512) (j : Fin 2048) :
    weights v0 v2 v6 (ix2 p j) = weight (tm v6 p) (tq v0 p) (ts v2) j := by
  show Ideal.exp (maskedT v0 v2 v6 (ix2 p j)
      - broadcastTo S512x2048 (shapeCast S512x1 (tops v0 v2 v6) shapeCasts_S512_S512x1) broadcasts_S512x1_S512x2048 (ix2 p j)) = _
  rw [column_apply, maskedT_apply, tops_apply]
  rfl

/-- The lane sum of row `p` is the sum of its 2048 weights. -/
theorem totals_apply (p : Fin 512) : totals v0 v2 v6 (ix1 p) = total (tm v6 p) (tq v0 p) (ts v2) := by
  unfold totals
  refine (Cert.LibColumns.multiReduction_add_rows_apply (weights v0 v2 v6) 0x00000000#32 reduces_S512x2048_S512 (.inl rfl) rfl p).trans ?_
  exact Finset.sum_congr rfl fun j _ => weights_apply v0 v2 v6 p j

/-- THE ATTENTION BLOCK, row by row: the specification's weights of (query row p, the key slab, mask row p). -/
theorem attnT_apply (p : Fin 512) (j : Fin 2048) :
    attnT v0 v2 v6 (ix2 p j) = attn (tm v6 p) (tq v0 p) (ts v2) j := by
  show Ideal.div (weights v0 v2 v6 (ix2 p j))
      (broadcastTo S512x2048 (shapeCast S512x1 (totals v0 v2 v6) shapeCasts_S512_S512x1) broadcasts_S512x1_S512x2048 (ix2 p j)) = _
  rw [column_apply, weights_apply, totals_apply]
  rfl

/-- THE OUTPUT BLOCK, row by row: the weights of row p against the value slab. -/
theorem outT_apply (p : Fin 512) (d : Fin 64) :
    outT v0 v2 v4 v6 (ix2 p d) = out (tm v6 p) (tq v0 p) (ts v2) (ts v4) d := by
  unfold outT
  refine (Cert.LibMatmulNN.matmul_nn_apply dot_S512x2048_S2048x64_S512x64_1_0_0_1_n_n rfl rfl rfl rfl rfl rfl none _ _ p d).trans ?_
  refine Finset.sum_congr rfl fun j _ => ?_
  show attnT v0 v2 v6 (ix2 p j) * shapeCast S2048x64 v4 shapeCasts_S1x2048x64_S2048x64 (ix2 j d) = _
  rw [attnT_apply, shapeCast_1ab_ab_apply]
  rfl

end Cert.Attn.Tile

end
-- ==== Proof.Blocks.lean ====
/-
  From grid points to whole arrays. The grid is 16 batches by 4 tiles of 512 query rows. At point (b, s) the
  query, mask, output and attention windows hold rows 512·s … 512·s + 511 of batch b, and the key and value
  windows hold the whole slab of batch b. So what the point writes back — the specification's rows of its
  blocks (Tile.lean) — is the block at (b, s) of the specification's arrays, because a softmax row needs only
  its own query and mask row and its batch's slabs. The 64 blocks tile each result array, hence each array
  ends holding the specification's function of the arguments. The mask reaches the region as 32-bit words, the
  bits zero-extended, and the body tests each word against zero: that gives back the bit.
-/
import proofs.«167176_j5720896438775_2_alg».proof.Proof.Gen.KernelIdeal.Value
import proofs.«167176_j5720896438775_2_alg».proof.Proof.Tile
import Idealize.ShloMosaic.Lib.StableHlo.Run

set_option maxRecDepth 16384

noncomputable section

namespace Cert.Attn.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem offsets_zero : (![0, 0, 0] : Fin 3 → Nat) = fun _ => 0 := funext fun a => by fin_cases a <;> rfl

/-! ## The mask -/

/-- The mask words as the region finds them: the mask bits, zero-extended by the one host operation before it. -/
theorem maskwords (c : Dev nD) :
    (V m c main_call0_v0 : S16x2048x2048.Idx → BitVec 32)
      = extui 32 (m ((c : Thread nD τ).loc main_arg3)) natLt_1_32 := by
  dsimp only [Gen.V, Gen.hostOps0]; after_results; rfl

/-- A zero-extended bit differs from zero exactly when it is set. -/
theorem ne_zero_of_bit (b : BitVec 1) : IntOp.cmpi .ne (b.setWidth 32) 0#32 = b := by
  revert b; decide

/-! ## The index maps, decided over the 64 points -/

/-- Every window's block index at a point in terms of the attention window's: query, mask and output move with
    it; keys and values follow the batch only; the last axis is never tiled. -/
theorem index_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = win0_5.index t (1 : Fin 3)
    ∧ win0_3.index t (2 : Fin 3) = 0
    ∧ win0_4.index t (0 : Fin 3) = win0_5.index t (0 : Fin 3) ∧ win0_4.index t (1 : Fin 3) = win0_5.index t (1 : Fin 3)
    ∧ win0_4.index t (2 : Fin 3) = 0
    ∧ win0_5.index t (2 : Fin 3) = 0 ∧ win0_5.index t (0 : Fin 3) < 16 ∧ win0_5.index t (1 : Fin 3) < 4 :=
  (by decide +kernel : ∀ t : Fin grid0.N, _)

/-- Every (batch, tile) pair is some point's. -/
theorem index_onto : ∀ (b : Fin 16) (s : Fin 4), ∃ t : Fin cfg0.N,
    win0_5.index t (0 : Fin 3) = b.val ∧ win0_5.index t (1 : Fin 3) = s.val :=
  (by decide +kernel : ∀ (b : Fin 16) (s : Fin 4), ∃ t : Fin grid0.N,
    win0_5.index t (0 : Fin 3) = b.val ∧ win0_5.index t (1 : Fin 3) = s.val)

/-! ## The input blocks, by coordinates -/

/-- Row `p` of the query block at `t` is query row `(b, i)`, `b` the point's batch and `i` the tile's row `p`. -/
theorem q_rows (c : Dev nD) (t : Fin cfg0.N) (p : Fin 512) (b : Fin 16) (i : Fin 2048)
    (hb : b.val = win0_5.index t (0 : Fin 3)) (hi : i.val = win0_5.index t (1 : Fin 3) * 512 + p.val) :
    Tile.tq (iblk m c 0 t) p = qrow (V m c main_arg0) b i := by
  obtain ⟨e00, e01, e02, -⟩ := index_facts t
  funext d
  show V m c main_arg0 (((cfg0.win 0).blk t).view.emb (ix3 (0 : Fin 1) p d)) = V m c main_arg0 (ix3 b i d)
  refine congrArg _ (funext fun a => Fin.ext ?_)
  match a with
  | ⟨0, _⟩ => show win0_0.index t (0 : Fin 3) * 1 + 1 * 0 = b.val; omega
  | ⟨1, _⟩ => show win0_0.index t (1 : Fin 3) * 512 + 1 * p.val = i.val; omega
  | ⟨2, _⟩ => show win0_0.index t (2 : Fin 3) * 64 + 1 * d.val = d.val; omega

/-- The key block at `t` is the key slab of the point's batch. -/
theorem k_rows (c : Dev nD) (t : Fin cfg0.N) (b : Fin 16) (hb : b.val = win0_5.index t (0 : Fin 3)) :
    Tile.ts (iblk m c 1 t) = slab (V m c main_arg1) b := by
  obtain ⟨-, -, -, e10, e11, e12, -⟩ := index_facts t
  funext j d
  show V m c main_arg1 (((cfg0.win 1).blk t).view.emb (ix3 (0 : Fin 1) j d)) = V m c main_arg1 (ix3 b j d)
  refine congrArg _ (funext fun a => Fin.ext ?_)
  match a with
  | ⟨0, _⟩ => show win0_1.index t (0 : Fin 3) * 1 + 1 * 0 = b.val; omega
  | ⟨1, _⟩ => show win0_1.index t (1 : Fin 3) * 2048 + 1 * j.val = j.val; omega
  | ⟨2, _⟩ => show win0_1.index t (2 : Fin 3) * 64 + 1 * d.val = d.val; omega

/-- The value block at `t` is the value slab of the point's batch. -/
theorem v_rows (c : Dev nD) (t : Fin cfg0.N) (b : Fin 16) (hb : b.val = win0_5.index t (0 : Fin 3)) :
    Tile.ts (iblk m c 2 t) = slab (V m c main_arg2) b := by
  obtain ⟨-, -, -, -, -, -, e20, e21, e22, -⟩ := index_facts t
  funext j d
  show V m c main_arg2 (((cfg0.win 2).blk t).view.emb (ix3 (0 : Fin 1) j d)) = V m c main_arg2 (ix3 b j d)
  refine congrArg _ (funext fun a => Fin.ext ?_)
  match a with
  | ⟨0, _⟩ => show win0_2.index t (0 : Fin 3) * 1 + 1 * 0 = b.val; omega
  | ⟨1, _⟩ => show win0_2.index t (1 : Fin 3) * 2048 + 1 * j.val = j.val; omega
  | ⟨2, _⟩ => show win0_2.index t (2 : Fin 3) * 64 + 1 * d.val = d.val; omega

/-- Row `p` of the mask block at `t`, tested against zero, is mask row `(b, i)`. -/
theorem m_rows (c : Dev nD) (t : Fin cfg0.N) (p : Fin 512) (b : Fin 16) (i : Fin 2048)
    (hb : b.val = win0_5.index t (0 : Fin 3)) (hi : i.val = win0_5.index t (1 : Fin 3) * 512 + p.val) :
    Tile.tm (iblk m c 3 t) p = mrow (m ((c : Thread nD τ).loc main_arg3)) b i := by
  obtain ⟨-, -, -, -, -, -, -, -, -, e30, e31, e32, -⟩ := index_facts t
  funext j
  show IntOp.cmpi .ne (V m c main_call0_v0 (((cfg0.win 3).blk t).view.emb (ix3 (0 : Fin 1) p j))) 0#32
      = m ((c : Thread nD τ).loc main_arg3) (ix3 b i j)
  rw [maskwords m c]
  show IntOp.cmpi .ne ((m ((c : Thread nD τ).loc main_arg3) (((cfg0.win 3).blk t).view.emb (ix3 (0 : Fin 1) p j))).setWidth 32) 0#32 = _
  rw [ne_zero_of_bit]
  refine congrArg _ (funext fun a => Fin.ext ?_)
  match a with
  | ⟨0, _⟩ => show win0_3.index t (0 : Fin 3) * 1 + 1 * 0 = b.val; omega
  | ⟨1, _⟩ => show win0_3.index t (1 : Fin 3) * 512 + 1 * p.val = i.val; omega
  | ⟨2, _⟩ => show win0_3.index t (2 : Fin 3) * 2048 + 1 * j.val = j.val; omega

/-! ## What the body leaves in each output block -/

/-- The attention block the body leaves, at `(u, p, j)`: row `p`'s weight of key `j`. -/
theorem attn_block (x0 : Vec Ideal S1x512x64 .f32) (x1 x2 : Vec Ideal S1x2048x64 .f32) (x3 : Vec Ideal S1x512x2048 .i32)
    (u : Fin 1) (p : Fin 512) (j : Fin 2048) :
    out0_5 (F := Ideal) x0 x1 x2 x3 (ix3 u p j) = attn (Tile.tm x3 p) (Tile.tq x0 p) (Tile.ts x1) j := by
  unfold out0_5
  rw [View.canon_unit_zero offsets_zero]
  simp only [View.ld_unit_zero (S := S1x512x64) offsets_zero, View.ld_unit_zero (S := S1x2048x64) offsets_zero,
    View.ld_unit_zero (S := S1x512x2048) offsets_zero]
  show shapeCast S1x512x2048 (k0_pay2 x0 x1 x3) shapeCasts_S512x2048_S1x512x2048 (ix3 u p j) = _
  rw [shapeCast_ab_1ab_apply, Tile.pay2_eq, Tile.attnT_apply]

/-- The output block the body leaves, at `(u, p, d)`: row `p`'s output at feature `d`. -/
theorem out_block (x0 : Vec Ideal S1x512x64 .f32) (x1 x2 : Vec Ideal S1x2048x64 .f32) (x3 : Vec Ideal S1x512x2048 .i32)
    (u : Fin 1) (p : Fin 512) (d : Fin 64) :
    out0_4 (F := Ideal) x0 x1 x2 x3 (ix3 u p d) = out (Tile.tm x3 p) (Tile.tq x0 p) (Tile.ts x1) (Tile.ts x2) d := by
  unfold out0_4
  rw [View.canon_unit_zero offsets_zero]
  simp only [View.ld_unit_zero (S := S1x512x64) offsets_zero, View.ld_unit_zero (S := S1x2048x64) offsets_zero,
    View.ld_unit_zero (S := S1x512x2048) offsets_zero]
  show shapeCast S1x512x64 (k0_pay4 x0 x1 x2 x3) shapeCasts_S512x64_S1x512x64 (ix3 u p d) = _
  rw [shapeCast_ab_1ab_apply, Tile.pay4_eq, Tile.outT_apply]

/-! ## What a point writes back is its block of the specification's arrays -/

/-- Point `t` writes back block `t` of the specification's attention array. -/
theorem flushed_attn (c : Dev nD) (t : Fin cfg0.N) :
    (dats m 0 c).flushed 5 t = ((cfg0.win 5).blk t).view.read (Elt Ideal)
      (attnArr (V m c main_arg0) (V m c main_arg1) (m ((c : Thread nD τ).loc main_arg3))) := by
  rw [Value.flushed5]
  obtain ⟨-, -, -, -, -, -, -, -, -, -, -, -, -, -, -, e52, hb, hs⟩ := index_facts t
  refine funext fun (y : S1x512x2048.Idx) => ?_
  obtain ⟨u, p, j, rfl⟩ : ∃ (u : Fin 1) (p : Fin 512) (j : Fin 2048), y = ix3 u p j := ⟨y 0, y 1, y 2, eq_ix3 y⟩
  obtain ⟨b, hbv⟩ : ∃ b : Fin 16, b.val = win0_5.index t (0 : Fin 3) := ⟨⟨_, hb⟩, rfl⟩
  obtain ⟨i, hiv⟩ : ∃ i : Fin 2048, i.val = win0_5.index t (1 : Fin 3) * 512 + p.val := ⟨⟨_, by omega⟩, rfl⟩
  have he : ((cfg0.win 5).blk t).view.emb (ix3 u p j) = ix3 b i j :=
    funext fun a => Fin.ext (by
      match a with
      | ⟨0, _⟩ => show win0_5.index t (0 : Fin 3) * 1 + 1 * u.val = b.val; omega
      | ⟨1, _⟩ => show win0_5.index t (1 : Fin 3) * 512 + 1 * p.val = i.val; omega
      | ⟨2, _⟩ => show win0_5.index t (2 : Fin 3) * 2048 + 1 * j.val = j.val; omega)
  show out0_5 (iblk m c 0 t) (iblk m c 1 t) (iblk m c 2 t) (iblk m c 3 t) (ix3 u p j)
      = attnArr _ _ _ (((cfg0.win 5).blk t).view.emb (ix3 u p j))
  rw [he, attnArr_apply, attn_block, q_rows m c t p b i hbv hiv, k_rows m c t b hbv, m_rows m c t p b i hbv hiv]

/-- Point `t` writes back block `t` of the specification's output array. -/
theorem flushed_out (c : Dev nD) (t : Fin cfg0.N) :
    (dats m 0 c).flushed 4 t = ((cfg0.win 4).blk t).view.read (Elt Ideal)
      (outArr (V m c main_arg0) (V m c main_arg1) (V m c main_arg2) (m ((c : Thread nD τ).loc main_arg3))) := by
  rw [Value.flushed4]
  obtain ⟨-, -, -, -, -, -, -, -, -, -, -, -, e40, e41, e42, e52, hb, hs⟩ := index_facts t
  refine funext fun (y : S1x512x64.Idx) => ?_
  obtain ⟨u, p, d, rfl⟩ : ∃ (u : Fin 1) (p : Fin 512) (d : Fin 64), y = ix3 u p d := ⟨y 0, y 1, y 2, eq_ix3 y⟩
  obtain ⟨b, hbv⟩ : ∃ b : Fin 16, b.val = win0_5.index t (0 : Fin 3) := ⟨⟨_, hb⟩, rfl⟩
  obtain ⟨i, hiv⟩ : ∃ i : Fin 2048, i.val = win0_5.index t (1 : Fin 3) * 512 + p.val := ⟨⟨_, by omega⟩, rfl⟩
  have he : ((cfg0.win 4).blk t).view.emb (ix3 u p d) = ix3 b i d :=
    funext fun a => Fin.ext (by
      match a with
      | ⟨0, _⟩ => show win0_4.index t (0 : Fin 3) * 1 + 1 * u.val = b.val; omega
      | ⟨1, _⟩ => show win0_4.index t (1 : Fin 3) * 512 + 1 * p.val = i.val; omega
      | ⟨2, _⟩ => show win0_4.index t (2 : Fin 3) * 64 + 1 * d.val = d.val; omega)
  show out0_4 (iblk m c 0 t) (iblk m c 1 t) (iblk m c 2 t) (iblk m c 3 t) (ix3 u p d)
      = outArr _ _ _ _ (((cfg0.win 4).blk t).view.emb (ix3 u p d))
  rw [he, outArr_apply, out_block, q_rows m c t p b i hbv hiv, k_rows m c t b hbv, v_rows m c t b hbv,
    m_rows m c t p b i hbv hiv]

/-! ## The blocks tile the arrays -/

/-- An index of the attention array is in point `t`'s block iff each coordinate is in the block's range. -/
theorem mem_attn_blk (t : Fin cfg0.N) (i : S16x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v0_1).slice (win0_5.rect t)).set ↔ _
  rw [View.set_slice_whole, Rect.mem_set_unit]
  exact Iff.rfl

/-- An index of the output array is in point `t`'s block iff each coordinate is in the block's range. -/
theorem mem_out_blk (t : Fin cfg0.N) (i : S16x2048x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v0_0).slice (win0_4.rect t)).set ↔ _
  rw [View.set_slice_whole, Rect.mem_set_unit]
  exact Iff.rfl

/-- Every index of the attention array is in the block of the point of its batch and of its row's tile. -/
theorem cover_attn (i : S16x2048x2048.Idx) :
    ∃ t : Fin cfg0.N, (cfg0.win 5).flush t = true ∧ i ∈ ((cfg0.win 5).blk t).view.set := by
  have h0 : (i 0).val < 16 := (i 0).isLt
  have h1 : (i 1).val < 2048 := (i 1).isLt
  have h2 : (i 2).val < 2048 := (i 2).isLt
  obtain ⟨t, hb, hs⟩ := index_onto ⟨(i 0).val, h0⟩ ⟨(i 1).val / 512, by omega⟩
  obtain ⟨-, -, -, -, -, -, -, -, -, -, -, -, -, -, -, e52, -, -⟩ := index_facts t
  refine ⟨t, flush0_5 t, ?_⟩
  rw [mem_attn_blk]
  intro a
  match a with
  | ⟨0, _⟩ => show win0_5.index t (0 : Fin 3) * 1 ≤ (i 0).val ∧ (i 0).val < win0_5.index t (0 : Fin 3) * 1 + 1
              change win0_5.index t (0 : Fin 3) = (i 0).val at hb; omega
  | ⟨1, _⟩ => show win0_5.index t (1 : Fin 3) * 512 ≤ (i 1).val ∧ (i 1).val < win0_5.index t (1 : Fin 3) * 512 + 512
              change win0_5.index t (1 : Fin 3) = (i 1).val / 512 at hs; omega
  | ⟨2, _⟩ => show win0_5.index t (2 : Fin 3) * 2048 ≤ (i 2).val ∧ (i 2).val < win0_5.index t (2 : Fin 3) * 2048 + 2048
              omega

/-- Every index of the output array is in the block of the point of its batch and of its row's tile. -/
theorem cover_out (i : S16x2048x64.Idx) :
    ∃ t : Fin cfg0.N, (cfg0.win 4).flush t = true ∧ i ∈ ((cfg0.win 4).blk t).view.set := by
  have h0 : (i 0).val < 16 := (i 0).isLt
  have h1 : (i 1).val < 2048 := (i 1).isLt
  have h2 : (i 2).val < 64 := (i 2).isLt
  obtain ⟨t, hb, hs⟩ := index_onto ⟨(i 0).val, h0⟩ ⟨(i 1).val / 512, by omega⟩
  obtain ⟨-, -, -, -, -, -, -, -, -, -, -, -, e40, e41, e42, -, -, -⟩ := index_facts t
  refine ⟨t, flush0_4 t, ?_⟩
  rw [mem_out_blk]
  intro a
  match a with
  | ⟨0, _⟩ => show win0_4.index t (0 : Fin 3) * 1 ≤ (i 0).val ∧ (i 0).val < win0_4.index t (0 : Fin 3) * 1 + 1
              change win0_5.index t (0 : Fin 3) = (i 0).val at hb; omega
  | ⟨1, _⟩ => show win0_4.index t (1 : Fin 3) * 512 ≤ (i 1).val ∧ (i 1).val < win0_4.index t (1 : Fin 3) * 512 + 512
              change win0_5.index t (1 : Fin 3) = (i 1).val / 512 at hs; omega
  | ⟨2, _⟩ => show win0_4.index t (2 : Fin 3) * 64 ≤ (i 2).val ∧ (i 2).val < win0_4.index t (2 : Fin 3) * 64 + 64
              omega

/-! ## The arrays after the run -/

/-- The attention array ends holding the specification's function of the arguments. -/
theorem final_attn (c : Dev nD) : (dats m 0 c).arrAt 5 cfg0.N
    = attnArr (m ((c : Thread nD τ).loc main_arg0)) (m ((c : Thread nD τ).loc main_arg1)) (m ((c : Thread nD τ).loc main_arg3)) := by
  rw [← V_main_arg0 m c, ← V_main_arg1 m c]
  exact (dats m 0 c).arrAt_eq_of_cover 5 _ (fun t _ => flushed_attn m c t) cover_attn

/-- The output array ends holding the specification's function of the arguments. -/
theorem final_out (c : Dev nD) : (dats m 0 c).arrAt 4 cfg0.N
    = outArr (m ((c : Thread nD τ).loc main_arg0)) (m ((c : Thread nD τ).loc main_arg1)) (m ((c : Thread nD τ).loc main_arg2))
        (m ((c : Thread nD τ).loc main_arg3)) := by
  rw [← V_main_arg0 m c, ← V_main_arg1 m c, ← V_main_arg2 m c]
  exact (dats m 0 c).arrAt_eq_of_cover 4 _ (fun t _ => flushed_out m c t) cover_out

/-- THE KERNEL'S RUN, READ: every weakly fair execution ends with the two result arrays at the specification's
    functions of the argument arrays, and the arguments unchanged. -/
theorem run : θ_run defs (onTc (τ := τ) (main (F := Ideal))) ⟨m, fun _ => 0, ρ⟩ fun r => ∀ c : Dev nD,
      r.2.mem ((c : Thread nD τ).loc main_v0_0)
        = outArr (m ((c : Thread nD τ).loc main_arg0)) (m ((c : Thread nD τ).loc main_arg1))
            (m ((c : Thread nD τ).loc main_arg2)) (m ((c : Thread nD τ).loc main_arg3))
      ∧ r.2.mem ((c : Thread nD τ).loc main_v0_1)
        = attnArr (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_out m c), (h c).2.1.trans (final_attn m c), (h c).2.2⟩)
    (Value.run_blocks m ρ)

end Cert.Attn.Blocks

end
-- ==== Proof.LibERealFactor.lean ====
/-
  A general lemma file: moving a factor across a finite sum of EXTENDED reals without knowing the summands are real.

  On the extended reals `(a + b) · v = a · v + b · v` fails in general (`(⊤ + ⊥) · v`), and the usual road to
  distributivity goes through the reals, which asks every summand to be finite. When the FACTOR is nonnegative and
  finite the law holds for arbitrary summands, hence for any finite sum (`sum_mul_nonneg`, `mul_sum_nonneg`). Such a
  factor is, for instance, an inverse square root of a positive extended real (`rsqrt_nonneg_fin`: `1/√x` for a
  positive real, `0` at `+∞`), the degree normalisation of a graph convolution.
-/
import Idealize.ShloMosaic.PureOps.Ideal

noncomputable section

open scoped BigOperators

namespace Cert.LibERealFactor

open Idealize.ShloMosaic

/-- A nonnegative finite factor on the right moves across a finite sum of extended reals, whatever the summands. -/
theorem sum_mul_nonneg {ι : Type*} (s : Finset ι) (f : ι → EReal) (v : EReal) (h0 : 0 ≤ v) (ht : v ≠ ⊤) :
    (∑ e ∈ s, f e) * v = ∑ e ∈ s, f e * v := by
  classical
  induction s using Finset.induction_on with
  | empty => simp
  | insert a s ha ih =>
    rw [Finset.sum_insert ha, Finset.sum_insert ha, ← ih]
    exact EReal.right_distrib_of_nonneg_of_ne_top h0 ht _ _

/-- The same with the factor on the left. -/
theorem mul_sum_nonneg {ι : Type*} (s : Finset ι) (f : ι → EReal) (v : EReal) (h0 : 0 ≤ v) (ht : v ≠ ⊤) :
    v * ∑ e ∈ s, f e = ∑ e ∈ s, v * f e := by
  rw [mul_comm, sum_mul_nonneg s f v h0 ht]
  exact Finset.sum_congr rfl fun e _ => mul_comm _ _

/-- The inverse square root of a positive extended real is nonnegative and finite (`0` at `+∞`). -/
theorem rsqrt_nonneg_fin (x : EReal) (hx : 0 < x) : 0 ≤ Ideal.rsqrt x ∧ Ideal.rsqrt x ≠ ⊤ := by
  induction x using EReal.rec with
  | bot => exact absurd hx (by simp)
  | top => exact ⟨le_refl _, by simp⟩
  | coe r =>
    have hr : 0 < r := by exact_mod_cast hx
    rw [Ideal.rsqrt_coe, if_neg (not_lt.mpr hr.le), if_neg hr.ne']
    exact ⟨by exact_mod_cast (inv_nonneg.mpr (Real.sqrt_nonneg r)), EReal.coe_ne_top _⟩

end Cert.LibERealFactor

end
-- ==== Proof.Scale.lean ====
/-
  The one arithmetic difference between the two programs. The kernel multiplies each query entry by the word
  `0x3E000000` (the dyadic 1/8) BEFORE contracting with a key row; the reference contracts first and then divides
  by the square root of the word `0x42800000` (64). On the extended reals the square root of 64 is 8, a division
  by the real 8 is the product with 1/8 whatever the dividend, and a nonnegative finite factor moves across a
  finite sum whatever the summands: so the two scores are one number, with no hypothesis on the entries.
-/
import Idealize.ShloMosaic.PureOps.Ideal
import proofs.«167176_j5720896438775_2_alg».proof.Proof.LibERealFactor

noncomputable section

namespace Cert.Attn

open Idealize.ShloMosaic

/-- The word `0x3E000000` denotes the real 1/8. -/
theorem ofBits_eighth : Ideal.ofBits .f32 0x3E000000#32 = ((1 / 8 : ℝ) : EReal) := by
  simp [Ideal.ofBits, Ideal.ieee, -EReal.coe_mul]; norm_num

/-- The word `0x42800000` denotes the real 64. -/
theorem ofBits_64 : Ideal.ofBits .f32 0x42800000#32 = ((64 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  show (if (64 : ℝ) < 0 then (⊥ : EReal) else (Real.sqrt 64 : EReal)) = _
  rw [if_neg (by norm_num)]
  congr 1
  rw [show (64 : ℝ) = 8 ^ 2 by norm_num]
  exact Real.sqrt_sq (by norm_num)

/-- Dividing by the square root of the word 64 is multiplying by the word 1/8, for every extended real. -/
theorem div_sqrt_64 (x : EReal) :
    Ideal.div x (Ideal.sqrt (Ideal.ofBits .f32 0x42800000#32)) = x * Ideal.ofBits .f32 0x3E000000#32 := by
  rw [ofBits_64, sqrt_64, ofBits_eighth, Ideal.div_coe (by norm_num : (8 : ℝ) ≠ 0)]

/-- Scaling every left factor of a contraction by the word 1/8 scales the contraction: 1/8 is nonnegative and
    finite, so it crosses the sum whatever the products are. -/
theorem scaled_contraction {ι : Type} [Fintype ι] (a b : ι → EReal) :
    ∑ d, (a d * Ideal.ofBits .f32 0x3E000000#32) * b d = (∑ d, a d * b d) * Ideal.ofBits .f32 0x3E000000#32 := by
  rw [ofBits_eighth, Cert.LibERealFactor.sum_mul_nonneg _ _ _
    (by exact_mod_cast (by norm_num : (0 : ℝ) ≤ 1 / 8)) (EReal.coe_ne_top _)]
  exact Finset.sum_congr rfl fun d _ => mul_right_comm _ _ _

end Cert.Attn

end
-- ==== Proof.LibHostMax3.lean ====
/-
  The maximum of a rank-3 array along its last axis, in a host program, read at an index given by coordinates.

  A `stablehlo.reduce` whose body is `maximum`, over the last axis of an `[a, b, c]` array, leaves an `[a, b]` array; its
  entry at `(p, r)` is the fold of `max`, from the initial value's one element, over the `c` entries `x (p, r, k)`. Since
  `max` is commutative and associative the order of the fold does not matter, and the fold over the indices that drop to
  `(p, r)` is the fold over the last coordinate `k` with `(p, r)` held fixed.
-/
import Idealize.ShloMosaic.Lib.ValueLayout
import Idealize.ShloMosaic.PureOps.Ideal.Laws

noncomputable section

open scoped BigOperators

namespace Idealize.ShloMosaic.ValueIdx

open Idealize.ShloMosaic

/-- The host's maximum of an `[a, b, c]` array along its last axis, read at `(p, r)`: the fold of `max`, from the initial
    value, over the entries `x (p, r, k)`, `k` running over the last axis, in any order. -/
theorem hostReduce_max_last3_apply {a b c : ℕ} {φ : FTy} {u : Shape} (x : FVec Ideal ⟨3, ![a, b, c]⟩ φ)
    (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduce (FloatOps.maximumf (F := Ideal) (φ := φ)) x init h' hu (ix2 p r)
      = (Finset.univ : Finset (Fin c)).fold max (init (Shape.Idx.first hu)) (fun k => x (ix3 p r k)) := by
  refine (Host.reduce_eq_fold_single (FloatOps.maximumf (F := Ideal) (φ := φ)) x init h' h hu (ix2 p r)).trans ?_
  refine congrArg (Finset.fold _ _ · _) (funext fun k => congrArg x (funext fun ax => Fin.ext ?_))
  match ax with
  | ⟨0, _⟩ => rfl
  | ⟨1, _⟩ => rfl
  | ⟨2, _⟩ => rfl

/-- The host's sum of an `[a, b, c]` array along its last axis, at the ideal values and read at `(p, r)`: the initial
    value plus the sum of the entries `x (p, r, k)`. -/
theorem hostReduceAdd_last3_apply {a b c : ℕ} {φ : FTy} {u : Shape} (x : FVec Ideal ⟨3, ![a, b, c]⟩ φ)
    (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduceAdd x init h' hu (ix2 p r) = init (Shape.Idx.first hu) + ∑ k : Fin c, x (ix3 p r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl
  | ⟨2, _⟩ => rfl

end Idealize.ShloMosaic.ValueIdx

end
-- ==== Proof.RefIsSpec.lean ====
/-
  The reference, stage by stage, is the specification. Its scores are the plain contraction divided by the
  square root of 64, which is the kernel's contraction of scaled queries (Scale.lean); from there on the two
  programs do the same thing: fill under the mask, take the row maximum from −∞ (the reference takes the
  maximum with −∞ once more, which changes nothing), exponentiate the difference, sum, divide, and contract
  with the values.
-/
import proofs.«167176_j5720896438775_2_alg».proof.Proof.Gen.ReferenceIdeal.Read
import proofs.«167176_j5720896438775_2_alg».proof.Proof.Spec
import proofs.«167176_j5720896438775_2_alg».proof.Proof.Scale
import proofs.«167176_j5720896438775_2_alg».proof.Proof.LibHostMax3

noncomputable section

namespace Cert.Attn.Ref

open Cert.ReferenceIdeal Cert.ReferenceIdeal.Gen Cert.ReferenceIdeal.Read Idealize.ShloMosaic Idealize.ShloMosaic.ValueIdx

variable (x0 x1 x2 : (⟨S16x2048x64, .f32⟩ : BufTy).Contents (Elt Ideal))
  (x3 : (⟨S16x2048x2048, .i1⟩ : BufTy).Contents (Elt Ideal))

/-- The scores: contract, then divide by √64 — the contraction of the scaled query row. -/
theorem scores_apply (b : Fin 16) (i j : Fin 2048) :
    val_main_v3 (F := Ideal) x0 x1 (ix3 b i j) = score (qrow x0 b i) (slab x1 b) j := by
  rw [val_main_v3_apply, val_main_v1_apply, val_main_v2_apply, val_main_v0_apply, val_main_cst_apply]
  show Ideal.div (∑ k : Fin 64, x0 (lidx_main_v1 (ix3 b i j) k) * x1 (ridx_main_v1 (ix3 b i j) k))
      (Ideal.sqrt (Ideal.ofBits .f32 0x42800000#32)) = _
  rw [div_sqrt_64]
  unfold score
  rw [scaled_contraction]
  refine congrArg (· * _) (Finset.sum_congr rfl fun k _ => ?_)
  have el : lidx_main_v1 (ix3 b i j) k = ix3 b i k := funext fun a => by
    match a with | ⟨0, _⟩ => rfl | ⟨1, _⟩ => rfl | ⟨2, _⟩ => rfl
  have er : ridx_main_v1 (ix3 b i j) k = ix3 b j k := funext fun a => by
    match a with | ⟨0, _⟩ => rfl | ⟨1, _⟩ => rfl | ⟨2, _⟩ => rfl
  rw [el, er]
  rfl

/-- The masked scores. -/
theorem masked_apply (b : Fin 16) (i j : Fin 2048) :
    val_main_v4 (F := Ideal) x0 x1 x3 (ix3 b i j) = masked (mrow x3 b i) (qrow x0 b i) (slab x1 b) j := by
  rw [val_main_v4_apply, val_main_call0_v1_apply, val_main_call0_v0_apply, val_main_cst_0_apply, scores_apply]
  rfl

/-- The row maximum: the host's fold of max from −∞ over the last axis, then once more the maximum with −∞. -/
theorem top_apply (b : Fin 16) (i : Fin 2048) :
    val_main_v7 (F := Ideal) x0 x1 x3 (ix2 b i) = top (mrow x3 b i) (qrow x0 b i) (slab x1 b) := by
  rw [val_main_v7_apply, val_main_v6_apply, val_main_cst_2_apply]
  have h5 : val_main_v5 (F := Ideal) x0 x1 x3 (ix2 b i) = top (mrow x3 b i) (qrow x0 b i) (slab x1 b) := by
    unfold val_main_v5
    refine (hostReduce_max_last3_apply (val_main_v4 (F := Ideal) x0 x1 x3) (val_main_cst_1 (F := Ideal))
      reducesTo_S16x2048x2048_S16x2048_d2 (by decide) h_S_ b i).trans ?_
    unfold top
    exact congrArg (Finset.fold max _ · _) (funext fun j => masked_apply x0 x1 x3 b i j)
  rw [h5]
  show max (Ideal.ofBits .f32 0xFF800000#32) (top (mrow x3 b i) (qrow x0 b i) (slab x1 b)) = _
  unfold top
  exact max_eq_right ((Finset.le_fold_max _).mpr (Or.inl le_rfl))

/-- The maximum kept as a trailing unit axis and spread along the keys reads, at `(b, i, j)`, row `(b, i)`'s. -/
theorem top_spread_apply (b : Fin 16) (i j : Fin 2048) :
    val_main_v9 (F := Ideal) x0 x1 x3 (ix3 b i j) = top (mrow x3 b i) (qrow x0 b i) (slab x1 b) := by
  rw [val_main_v9_apply, val_main_v8_apply, ← top_apply x0 x1 x3 b i]
  exact congrArg _ (funext fun a => by match a with | ⟨0, _⟩ => rfl | ⟨1, _⟩ => rfl)

/-- The unnormalised weights. -/
theorem weight_apply (b : Fin 16) (i j : Fin 2048) :
    val_main_v11 (F := Ideal) x0 x1 x3 (ix3 b i j) = weight (mrow x3 b i) (qrow x0 b i) (slab x1 b) j := by
  rw [val_main_v11_apply, val_main_v10_apply, masked_apply, top_spread_apply]
  rfl

/-- The normaliser: zero plus the sum over the keys. -/
theorem total_apply (b : Fin 16) (i : Fin 2048) :
    val_main_v12 (F := Ideal) x0 x1 x3 (ix2 b i) = total (mrow x3 b i) (qrow x0 b i) (slab x1 b) := by
  rw [val_main_v12_apply]
  show Ideal.ofBits .f32 0x00000000#32 + _ = _
  rw [Ideal.ofBits_zero_f32, zero_add]
  unfold total
  refine Finset.sum_congr rfl fun k _ => ?_
  rw [← weight_apply x0 x1 x3 b i k]
  exact congrArg _ (funext fun a => by match a with | ⟨0, _⟩ => rfl | ⟨1, _⟩ => rfl | ⟨2, _⟩ => rfl)

/-- The normaliser spread along the keys. -/
theorem total_spread_apply (b : Fin 16) (i j : Fin 2048) :
    val_main_v14 (F := Ideal) x0 x1 x3 (ix3 b i j) = total (mrow x3 b i) (qrow x0 b i) (slab x1 b) := by
  rw [val_main_v14_apply, val_main_v13_apply, ← total_apply x0 x1 x3 b i]
  exact congrArg _ (funext fun a => by match a with | ⟨0, _⟩ => rfl | ⟨1, _⟩ => rfl)

/-- The attention weights. -/
theorem attn_apply (b : Fin 16) (i j : Fin 2048) :
    val_main_v15 (F := Ideal) x0 x1 x3 (ix3 b i j) = attn (mrow x3 b i) (qrow x0 b i) (slab x1 b) j := by
  rw [val_main_v15_apply, weight_apply, total_spread_apply]
  rfl

/-- The outputs: the batched contraction of the weights with the value rows. -/
theorem out_apply (b : Fin 16) (i : Fin 2048) (d : Fin 64) :
    val_main_v16 (F := Ideal) x0 x1 x2 x3 (ix3 b i d) = out (mrow x3 b i) (qrow x0 b i) (slab x1 b) (slab x2 b) d := by
  rw [val_main_v16_apply]
  unfold out
  refine Finset.sum_congr rfl fun k _ => ?_
  have el : lidx_main_v16 (ix3 b i d) k = ix3 b i k := funext fun a => by
    match a with | ⟨0, _⟩ => rfl | ⟨1, _⟩ => rfl | ⟨2, _⟩ => rfl
  have er : ridx_main_v16 (ix3 b i d) k = ix3 b k d := funext fun a => by
    match a with | ⟨0, _⟩ => rfl | ⟨1, _⟩ => rfl | ⟨2, _⟩ => rfl
  rw [el, er, attn_apply]
  rfl

/-- THE REFERENCE'S ATTENTION ARRAY is the specification's. -/
theorem attn_eq : val_main_v15 (F := Ideal) x0 x1 x3 = attnArr x0 x1 x3 := by
  funext i
  obtain ⟨b, r, j, rfl⟩ : ∃ (b : Fin 16) (r j : Fin 2048), i = ix3 b r j := ⟨i 0, i 1, i 2, eq_ix3 i⟩
  exact attn_apply x0 x1 x3 b r j

/-- THE REFERENCE'S OUTPUT ARRAY is the specification's. -/
theorem out_eq : val_main_v16 (F := Ideal) x0 x1 x2 x3 = outArr x0 x1 x2 x3 := by
  funext i
  obtain ⟨b, r, d, rfl⟩ : ∃ (b : Fin 16) (r : Fin 2048) (d : Fin 64), i = ix3 b r d := ⟨i 0, i 1, i 2, eq_ix3 i⟩
  exact out_apply x0 x1 x2 x3 b r d

end Cert.Attn.Ref

end
-- ==== Proof.lean ====
/-
  Masked scaled-dot-product attention over f32[16, 2048, 64] queries, keys and values with a bool[16, 2048, 2048]
  mask, returning the output and the attention weights: a kernel that, per (batch, tile of 512 query rows),
  scales the queries by 1/8, contracts with the batch's keys, fills −1e30 under the mask, takes a row softmax
  with the maximum subtracted, and contracts with the batch's values — against the plain program that contracts,
  divides by √64, fills the same word, takes `jax.nn.softmax` and contracts.

  On the extended reals the two compute one function, written once in Proof/Spec.lean. The only arithmetic
  difference is where the scale sits (Proof/Scale.lean: √64 = 8, and the finite nonnegative factor 1/8 crosses
  the contraction whatever the entries, so the input precondition is never opened). The reference stage by stage
  is that function (Proof/RefIsSpec.lean); one grid point's stores are its rows for the point's blocks
  (Proof/Tile.lean); and the 64 points' blocks tile the two result arrays (Proof/Blocks.lean). The ideal pass
  rewrote nothing, so the kernel's idealization is its own text read on the extended reals.
-/
import proofs.«167176_j5720896438775_2_alg».proof.Defs
import proofs.«167176_j5720896438775_2_alg».proof.Proof.Gen.Kernel
import proofs.«167176_j5720896438775_2_alg».proof.Proof.Gen.Kernel.Skeleton
import proofs.«167176_j5720896438775_2_alg».proof.Proof.Gen.Kernel.Launch
import proofs.«167176_j5720896438775_2_alg».proof.Proof.Gen.Kernel.Points
import proofs.«167176_j5720896438775_2_alg».proof.Proof.Gen.Kernel.Frame
import proofs.«167176_j5720896438775_2_alg».proof.Proof.Gen.KernelIdeal
import proofs.«167176_j5720896438775_2_alg».proof.Proof.Gen.KernelIdeal.Skeleton
import proofs.«167176_j5720896438775_2_alg».proof.Proof.Gen.KernelIdeal.Launch
import proofs.«167176_j5720896438775_2_alg».proof.Proof.Gen.KernelIdeal.Points
import proofs.«167176_j5720896438775_2_alg».proof.Proof.Gen.KernelIdeal.Frame
import proofs.«167176_j5720896438775_2_alg».proof.Proof.Gen.ReferenceIdeal
import proofs.«167176_j5720896438775_2_alg».proof.Proof.Gen.Pre_finite_inputs
import proofs.«167176_j5720896438775_2_alg».proof.Proof.Gen.KernelIdeal.Value
import proofs.«167176_j5720896438775_2_alg».proof.Proof.Gen.ReferenceIdeal.Run
import proofs.«167176_j5720896438775_2_alg».proof.Proof.Gen.ReferenceIdeal.Read
import proofs.«167176_j5720896438775_2_alg».proof.Proof.Blocks
import proofs.«167176_j5720896438775_2_alg».proof.Proof.RefIsSpec
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference's run with its results forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- From memories that agree on the arguments both programs end with the specification's two arrays of those
    arguments: the kernel by its run read block by block, the reference by its stages. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.Attn.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v16_eq, Cert.Attn.Ref.out_eq, (hagree c).1, (hagree c).2.1, (hagree c).2.2.1,
      (hagree c).2.2.2]
  · rw [Cert.ReferenceIdeal.Read.val_main_v15_eq, Cert.Attn.Ref.attn_eq, (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
